-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x9 : Shape := ⟨2, ![5000000, 9]⟩
abbrev S9 : Shape := ⟨1, ![9]⟩
abbrev S_ : Shape := ⟨0, ![]⟩

class Facts : Prop where
  bcast_S_S5000000x9 : S_.BroadcastsInDim S5000000x9 (![] : Fin 0 → Fin S5000000x9.rank)
  reducesTo_S5000000x9_S_d0_1 : S5000000x9.ReducesTo [0, 1] S_
  h_S_ : 0 < S_.numel
  bcast_S_S9 : S_.BroadcastsInDim S9 (![] : Fin 0 → Fin S9.rank)
  reducesTo_S9_S_d0 : S9.ReducesTo [0] S_

variable [Facts]

def fn_part1 {F : FTy → Type} [FloatOps F] (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  main_v18

def fn {F : FTy → Type} [FloatOps F] (main_arg0 : FVec F S5000000x9 .f32) (main_arg1 : FVec F S5000000x9 .f32) (main_arg2 : FVec F S5000000x9 .f32) (main_arg3 : FVec F S9 .f32) : IVec S_ 1 :=
  let main_v0 : FVec F S5000000x9 .f32 := Host.absf main_arg0
  let main_cst : FVec F S_ .f32 := constant S_ .f32 0x7F800000#32
  let main_v1 : FVec F S5000000x9 .f32 := broadcastInDim S5000000x9 ![] bcast_S_S5000000x9 main_cst
  let main_v2 : IVec S5000000x9 1 := cmpf .olt main_v0 main_v1
  let main_c : IVec S_ 1 := constantI S_ 1 1#1
  let main_v3 : IVec S_ 1 := (fun x v => Host.reduce IntOp.andi x v reducesTo_S5000000x9_S_d0_1 h_S_) main_v2 main_c
  let main_v4 : FVec F S5000000x9 .f32 := Host.absf main_arg1
  let main_cst_0 : FVec F S_ .f32 := constant S_ .f32 0x7F800000#32
  let main_v5 : FVec F S5000000x9 .f32 := broadcastInDim S5000000x9 ![] bcast_S_S5000000x9 main_cst_0
  let main_v6 : IVec S5000000x9 1 := cmpf .olt main_v4 main_v5
  let main_c_1 : IVec S_ 1 := constantI S_ 1 1#1
  let main_v7 : IVec S_ 1 := (fun x v => Host.reduce IntOp.andi x v reducesTo_S5000000x9_S_d0_1 h_S_) main_v6 main_c_1
  let main_v8 : IVec S_ 1 := andi main_v3 main_v7
  let main_v9 : FVec F S5000000x9 .f32 := Host.absf main_arg2
  let main_cst_2 : FVec F S_ .f32 := constant S_ .f32 0x7F800000#32
  let main_v10 : FVec F S5000000x9 .f32 := broadcastInDim S5000000x9 ![] bcast_S_S5000000x9 main_cst_2
  let main_v11 : IVec S5000000x9 1 := cmpf .olt main_v9 main_v10
  let main_c_3 : IVec S_ 1 := constantI S_ 1 1#1
  let main_v12 : IVec S_ 1 := (fun x v => Host.reduce IntOp.andi x v reducesTo_S5000000x9_S_d0_1 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_v13 main_v16
-- ==== Kernel.lean ====
abbrev S5000000x9 : Shape := ⟨2, ![5000000, 9]⟩
abbrev S9 : Shape := ⟨1, ![9]⟩
abbrev S1x9 : Shape := ⟨2, ![1, 9]⟩
abbrev S2x8x128 : Shape := ⟨3, ![2, 8, 128]⟩
abbrev S4000x9 : Shape := ⟨2, ![4000, 9]⟩
abbrev S1x8x128 : Shape := ⟨3, ![1, 8, 128]⟩
abbrev S4000 : Shape := ⟨1, ![4000]⟩
abbrev S4000x1 : Shape := ⟨2, ![4000, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S5000000x9, .f32⟩
  | .hbm, ⟨1, _⟩ => ⟨S5000000x9, .f32⟩
  | .hbm, ⟨2, _⟩ => ⟨S5000000x9, .f32⟩
  | .hbm, ⟨3, _⟩ => ⟨S9, .f32⟩
  | .hbm, ⟨4, _⟩ => ⟨S1x9, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S4000x9, .f32⟩
  | .local _ .vmem, ⟨1, _⟩ => ⟨S4000x9, .f32⟩
  | .local _ .vmem, ⟨2, _⟩ => ⟨S4000x9, .f32⟩
  | .local _ .vmem, ⟨3, _⟩ => ⟨S4000x9, .f32⟩
  | .local _ .vmem, ⟨4, _⟩ => ⟨S4000x9, .f32⟩
  | .local _ .vmem, ⟨5, _⟩ => ⟨S4000x9, .f32⟩
  | .local _ .vmem, ⟨6, _⟩ => ⟨S1x9, .f32⟩
  | .local _ .vmem, ⟨7, _⟩ => ⟨S1x8x128, .f32⟩
  | .local _ .vmem, ⟨8, _⟩ => ⟨S1x8x128, .f32⟩
  | _, _ => ⟨S5000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 625], ![false, false]⟩

def cc0_transform_0 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c625_i32 : BitVec 32 := 625#32
  let v0 : BitVec 32 := Scalar.muli arg0 c625_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S9_S1x9 : S9.ShapeCasts S1x9
  inb_S1x8x128_S1x8x128_0_0_0 : ∀ a, (![0, 0, 0] : Fin 3 → Nat) a + S1x8x128.size a ≤ S1x8x128.size a
  h_S1x8x128 : 0 < S1x8x128.numel
  inb_S4000x9_S4000x9_0_0 : ∀ a, (![0, 0] : Fin 2 → Nat) a + S4000x9.size a ≤ S4000x9.size a
  h_S4000x9 : 0 < S4000x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S4000x9 : S1x9.Broadcasts S4000x9
  reduces_S4000x9_S4000 : S4000x9.Reduces [1] S4000
  shapeCasts_S4000_S4000x1 : S4000.ShapeCasts S4000x1
  natLt_1_32 : 1 < 32
  reduces_S4000x1_S1 : S4000x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x9.size a ≤ S5000000x9.size a
  hwx0_0 : ∀ i : grid0.Coords, EltTy.bits .f32 = 32 ∨ (Rect.block (s := S5000000x9) S4000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x9.size a ≤ S5000000x9.size a
  hwx0_1 : ∀ i : grid0.Coords, EltTy.bits .f32 = 32 ∨ (Rect.block (s := S5000000x9) S4000x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x9.size a ≤ S5000000x9.size a
  hwx0_2 : ∀ i : grid0.Coords, EltTy.bits .f32 = 32 ∨ (Rect.block (s := S5000000x9) S4000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S4000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S5000000x9 : Shape := ⟨2, ![5000000, 9]⟩
abbrev S9 : Shape := ⟨1, ![9]⟩
abbrev S1x9 : Shape := ⟨2, ![1, 9]⟩
abbrev S_ : Shape := ⟨0, ![]⟩
abbrev S5000000 : Shape := ⟨1, ![5000000]⟩

abbrev nBuf : Space → Nat
  | .hbm => 22
  | .vmem => 0
  | .smem => 0
  | _ => 0

abbrev bufTy : (tb : Table) → Fin (tcTables nBuf tb) → BufTy
  | .hbm, ⟨0, _⟩ => ⟨S5000000x9, .f32⟩
  | .hbm, ⟨1, _⟩ => ⟨S5000000x9, .f32⟩
  | .hbm, ⟨2, _⟩ => ⟨S5000000x9, .f32⟩
  | .hbm, ⟨3, _⟩ => ⟨S9, .f32⟩
  | .hbm, ⟨4, _⟩ => ⟨S5000000x9, .f32⟩
  | .hbm, ⟨5, _⟩ => ⟨S1x9, .f32⟩
  | .hbm, ⟨6, _⟩ => ⟨S5000000x9, .f32⟩
  | .hbm, ⟨7, _⟩ => ⟨S5000000x9, .f32⟩
  | .hbm, ⟨8, _⟩ => ⟨S5000000x9, .f32⟩
  | .hbm, ⟨9, _⟩ => ⟨S5000000x9, .i1⟩
  | .hbm, ⟨10, _⟩ => ⟨S5000000x9, .i1⟩
  | .hbm, ⟨11, _⟩ => ⟨S5000000x9, .i32⟩
  | .hbm, ⟨12, _⟩ => ⟨S_, .i32⟩
  | .hbm, ⟨13, _⟩ => ⟨S5000000, .i32⟩
  | .hbm, ⟨14, _⟩ => ⟨S5000000, .f32⟩
  | .hbm, ⟨15, _⟩ => ⟨S_, .f32⟩
  | .hbm, ⟨16, _⟩ => ⟨S5000000, .f32⟩
  | .hbm, ⟨17, _⟩ => ⟨S5000000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S5000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S1x9_S5000000x9_0_1 : S1x9.BroadcastsInDim S5000000x9 (![0, 1] : Fin 2 → Fin S5000000x9.rank)
  natLt_1_32 : 1 < 32
  reducesTo_S5000000x9_S5000000_d1 : S5000000x9.ReducesTo [1] S5000000
  h_S_ : 0 < S_.numel
  reducesTo_S5000000_S_d0 : S5000000.ReducesTo [0] S_

variable [Facts₀]

class Facts : Prop extends Facts₀ where

variable [Facts]
-- ==== Proof.Spec.lean ====
/-
  The quantity both programs compute, over the extended reals.

  For row `r` of three `[5000000, 9]` arrays `Y`, `P` (and a mask array that plays no part over the extended
  reals, where every entry counts as valid) and a `[9]` vector `nv`:

      term r j   = ((Y r j - P r j) / nv j)²
      rowMean r  = (∑ j, term r j) / 9
      loss       = (∑ r, rowMean r) / 5000000

  The kernel walks the rows in 1250 tiles of 4000 rows: tile `n` holds rows `4000 n … 4000 n + 3999`, and the
  tiles are accumulated in two runs of 625 (a running sum that restarts at tiles 0 and 625); the two totals are then
  added. Addition of extended reals is commutative and associative, so the two runs together are the sum over all
  tiles, and the sum over tiles of the sum over a tile's rows is the sum over all rows.
-/
import Idealize.ShloMosaic.PureOps.Ideal
import Idealize.ShloMosaic.PureOps.Ideal.Laws
import Mathlib.Algebra.BigOperators.Fin
import Mathlib.Logic.Equiv.Fin.Basic

noncomputable section

open scoped BigOperators

namespace Cert.ObsLoss

open Idealize.ShloMosaic

/-! ## The function -/

variable (Y P : Fin 5000000 → Fin 9 → EReal) (nv : Fin 9 → EReal)

/-- The squared normalised difference of one entry. -/
def term (r : Fin 5000000) (j : Fin 9) : EReal :=
  Ideal.div (Y r j - P r j) (nv j) * Ideal.div (Y r j - P r j) (nv j)

/-- A row's mean over its nine channels. -/
def rowMean (r : Fin 5000000) : EReal :=
  Ideal.div (∑ j : Fin 9, term Y P nv r j) ((9 : ℝ) : EReal)

/-- The mean over all rows (the divisor is the f32 pattern of 5000000). -/
def loss : EReal :=
  Ideal.div (∑ r : Fin 5000000, rowMean Y P nv r) (Ideal.ofBits .f32 0x4A989680#32)

/-! ## Rows by tiles -/

/-- Row `q` of tile `n`. -/
def rowOf (n : Fin 1250) (q : Fin 4000) : Fin 5000000 :=
  ⟨n.val * 4000 + q.val, by have := n.isLt; have := q.isLt; omega⟩

theorem rowOf_val (n : Fin 1250) (q : Fin 4000) : (rowOf n q).val = n.val * 4000 + q.val := rfl

/-- The pairs (tile, row in the tile) number the rows. -/
def tileEquiv : Fin 1250 × Fin 4000 ≃ Fin 5000000 := finProdFinEquiv.trans (finCongr (by norm_num))

theorem tileEquiv_val (x : Fin 1250 × Fin 4000) : (tileEquiv x).val = x.2.val + 4000 * x.1.val := rfl

/-- A sum over all rows is the sum over the tiles of the sum over each tile's rows. -/
theorem sum_rows {M : Type*} [AddCommMonoid M] (f : Fin 5000000 → M) :
    ∑ r : Fin 5000000, f r = ∑ n : Fin 1250, ∑ q : Fin 4000, f (rowOf n q) := by
  rw [← Fintype.sum_prod_type', ← tileEquiv.sum_comp]
  refine Finset.sum_congr rfl fun x _ => congrArg f (Fin.ext ?_)
  rw [tileEquiv_val, rowOf_val]; omega

/-- The sum of the rows of tile `n`. -/
def tileSum (n : Fin 1250) : EReal := ∑ q : Fin 4000, rowMean Y P nv (rowOf n q)

/-! ## The running sum over the tiles, restarted every 625 -/

/-- What the accumulator holds after tile `n`: it restarts at the tiles divisible by 625. -/
def run (tile : ℕ → EReal) : ℕ → EReal
  | 0 => tile 0
  | n + 1 => if (n + 1) % 625 = 0 then tile (n + 1) else run tile n + tile (n + 1)

/-- It is the sum of the tiles of the current run of 625 up to `n`. -/
theorem run_eq (tile : ℕ → EReal) (n : ℕ) :
    run tile n = ∑ k ∈ (Finset.range (n + 1)).filter (fun k => k / 625 = n / 625), tile k := by
  induction n with
  | zero =>
    have : (Finset.range (0 + 1)).filter (fun k => k / 625 = 0 / 625) = {0} := by
      ext k
      simp only [Finset.mem_filter, Finset.mem_range, Finset.mem_singleton]
      omega
    rw [this, Finset.sum_singleton]
    rfl
  | succ n ih =>
    rw [run]
    split
    · next h =>
      have : (Finset.range (n + 1 + 1)).filter (fun k => k / 625 = (n + 1) / 625) = {n + 1} := by
        ext k
        simp only [Finset.mem_filter, Finset.mem_range, Finset.mem_singleton]
        omega
      rw [this, Finset.sum_singleton]
    · next h =>
      rw [ih, Finset.range_add_one (n := n + 1), Finset.filter_insert, if_pos rfl,
        Finset.sum_insert (by simp), add_comm]
      refine congrArg (tile (n + 1) + ·) (Finset.sum_congr ?_ fun _ _ => rfl)
      ext k
      simp only [Finset.mem_filter, Finset.mem_range]
      omega

/-- The two runs' totals together are the sum over all 1250 tiles. -/
theorem run_total (tile : ℕ → EReal) : run tile 624 + run tile 1249 = ∑ k ∈ Finset.range 1250, tile k := by
  rw [run_eq, run_eq]
  have h1 : (Finset.range (624 + 1)).filter (fun k => k / 625 = 624 / 625)
      = (Finset.range 1250).filter (fun k => k / 625 = 0) := by
    ext k; simp only [Finset.mem_filter, Finset.mem_range]; omega
  have h2 : (Finset.range (1249 + 1)).filter (fun k => k / 625 = 1249 / 625)
      = (Finset.range 1250).filter (fun k => ¬ k / 625 = 0) := by
    ext k; simp only [Finset.mem_filter, Finset.mem_range]; omega
  rw [h1, h2, Finset.sum_filter_add_sum_filter_not]

end Cert.ObsLoss

end
-- ==== Proof.Blocks.lean ====
/-
  What the kernel's windows read, in the arguments' coordinates.

  The grid has 1250 points; point `t` works on tile `t`: rows `4000 t … 4000 t + 3999` of the three `[5000000, 9]`
  arguments, together with the `[9]` divisor vector viewed as one `[1, 9]` row. So an input block's entry `(q, j)` is
  the argument's entry `(4000 t + q, j)`.
-/
import proofs.«116418_j18047452577914_2_alg».proof.Proof.Gen.KernelIdeal.Frame
import proofs.«116418_j18047452577914_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)
open scoped BigOperators

namespace Cert.ObsLoss.Blocks
open Cert.KernelIdeal Cert.KernelIdeal.Gen

variable (m : (ℓ : Loc nD τ sig) → Buf (Elt Ideal) ℓ)

/-- The block indices, decided once over the 1250 grid points: at point `t` the three row-tiled inputs are on block
    `t` of their rows (and on their one block of channels), the divisor row on its one block, and the output on slot
    `t / 625`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val / 625 ∧ win0_4.index t (1 : Fin 3) = 0 ∧ win0_4.index t (2 : Fin 3) = 0 :=
  (by decide +kernel : ∀ t : Fin grid0.N, _)

/-- A grid point is below 1250. -/
theorem tlt (t : Fin cfg0.N) : t.val < 1250 := lt_of_lt_of_eq t.isLt (show cfg0.N = 1250 from N_0)

/-- The first input's block at point `t` reads, at `(q, j)`, the first argument at row `q` of tile `t`, channel `j`. -/
theorem iblk0_apply (c : Dev nD) (t : Fin cfg0.N) (q : Fin 4000) (j : Fin 9) :
    (iblk m c 0 t : Vec Ideal S4000x9 .f32) (ix2 q j)
      = m ((c.tc : Thread nD τ).loc main_arg0) (ix2 (Cert.ObsLoss.rowOf ⟨t.val, tlt t⟩ q) j) := by
  obtain ⟨e0, e1, -⟩ := idx_facts t
  unfold iblk
  rw [View.read_apply]
  show V m c main_arg0 (((cfg0.win 0).blk t).view.emb (ix2 q j)) = _
  rw [V_main_arg0]
  refine congrArg _ ?_
  funext a; apply Fin.ext
  match a with
  | ⟨0, _⟩ => show win0_0.index t (0 : Fin 2) * 4000 + 1 * q.val = t.val * 4000 + q.val; omega
  | ⟨1, _⟩ => show win0_0.index t (1 : Fin 2) * 9 + 1 * j.val = j.val; omega

/-- The second input's block likewise reads the second argument. -/
theorem iblk1_apply (c : Dev nD) (t : Fin cfg0.N) (q : Fin 4000) (j : Fin 9) :
    (iblk m c 1 t : Vec Ideal S4000x9 .f32) (ix2 q j)
      = m ((c.tc : Thread nD τ).loc main_arg1) (ix2 (Cert.ObsLoss.rowOf ⟨t.val, tlt t⟩ q) j) := by
  obtain ⟨-, -, e0, e1, -⟩ := idx_facts t
  unfold iblk
  rw [View.read_apply]
  show V m c main_arg1 (((cfg0.win 1).blk t).view.emb (ix2 q j)) = _
  rw [V_main_arg1]
  refine congrArg _ ?_
  funext a; apply Fin.ext
  match a with
  | ⟨0, _⟩ => show win0_1.index t (0 : Fin 2) * 4000 + 1 * q.val = t.val * 4000 + q.val; omega
  | ⟨1, _⟩ => show win0_1.index t (1 : Fin 2) * 9 + 1 * j.val = j.val; omega

/-- The divisor row the region finds is the `[9]` argument viewed as `[1, 9]`. -/
theorem V_main_v0 (c : Dev nD) :
    (V m c main_v0 : S1x9.Idx → EReal) = shapeCast S1x9 (m ((c.tc : Thread nD τ).loc main_arg3)) shapeCasts_S9_S1x9 := by
  show StableHlo.after hostOps0 (fun b => m (c, b)) (Proc.devRef .tc main_v0) = _
  after_results
  rfl

/-- The divisor row's block at any point reads, at `(0, j)`, the `[9]` argument at `j`. -/
theorem iblk3_apply (c : Dev nD) (t : Fin cfg0.N) (j : Fin 9) :
    (iblk m c 3 t : Vec Ideal S1x9 .f32) (ix2 (0 : Fin 1) j) = m ((c.tc : Thread nD τ).loc main_arg3) (ix1 j) := by
  obtain ⟨-, -, -, -, -, -, e0, e1, -⟩ := idx_facts t
  unfold iblk
  rw [View.read_apply]
  show V m c main_v0 (((cfg0.win 3).blk t).view.emb (ix2 (0 : Fin 1) j)) = _
  rw [V_main_v0]
  refine (congrArg _ ?_).trans (shapeCast_a_1a_apply (m ((c.tc : Thread nD τ).loc main_arg3)) shapeCasts_S9_S1x9 (0 : Fin 1) j)
  funext a; apply Fin.ext
  match a with
  | ⟨0, _⟩ => show win0_3.index t (0 : Fin 2) * 1 + 1 * 0 = 0; omega
  | ⟨1, _⟩ => show win0_3.index t (1 : Fin 2) * 9 + 1 * j.val = j.val; omega

end Cert.ObsLoss.Blocks

end
-- ==== Proof.Cases.lean ====
/-
  What one grid point leaves in the output block, as the body's own arithmetic.

  The body stores the output block once per point: the block it found plus the tile's sum (the pure term `k0_pay2` of
  the four input blocks and the block found). At the first point of a run of 625 it first stores the zero block
  (`k0_pay1`) and reads that back, so there the block found IS the zero block. Both facts hold for any float values:
  each load reads a whole buffer, each store covers the whole block.
-/
import proofs.«116418_j18047452577914_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.ObsLoss.Cases
open Cert.KernelIdeal Cert.KernelIdeal.Gen
variable {F : FTy → Type} [FloatOps F]

/-- The zero offsets of a rank-3 and of a rank-2 whole-buffer access. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that continues a run: the block found is what the point before left, and the body leaves the body's
    stored value of the input blocks and that block. -/
theorem out_B (c : Dev nD) (i : grid0.Coords) (a2 : Memref sig .tc .vmem S4000x9 .f32) (h2 : a2.IsWhole)
    (a3 : Memref sig .tc .vmem S4000x9 .f32) (h3 : a3.IsWhole) (a4 : Memref sig .tc .vmem S4000x9 .f32) (h4 : a4.IsWhole)
    (a5 : Memref sig .tc .vmem S1x9 .f32) (h5 : a5.IsWhole) (a6 : Memref sig .tc .vmem S1x8x128 .f32) (h6 : a6.IsWhole)
    (hc : ¬cond0_0 i) (x0 x1 x2 : Vec F S4000x9 .f32) (x3 : Vec F S1x9 .f32) (xo : Vec F S1x8x128 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz3]
  simp only [View.readAt_eq_ld, h2.read_unread, h3.read_unread, h4.read_unread, h5.read_unread, h6.read_unread,
    View.ld_unit_zero (S := S4000x9) hz2, View.ld_unit_zero (S := S1x9) hz2, View.ld_unit_zero (S := S1x8x128) hz3]

/-- A point that starts a run: the zero block is stored and read back, so the body leaves its stored value of the input
    blocks and the zero block. -/
theorem out_A (c : Dev nD) (i : grid0.Coords) (a2 : Memref sig .tc .vmem S4000x9 .f32) (h2 : a2.IsWhole)
    (a3 : Memref sig .tc .vmem S4000x9 .f32) (h3 : a3.IsWhole) (a4 : Memref sig .tc .vmem S4000x9 .f32) (h4 : a4.IsWhole)
    (a5 : Memref sig .tc .vmem S1x9 .f32) (h5 : a5.IsWhole) (a6 : Memref sig .tc .vmem S1x8x128 .f32) (h6 : a6.IsWhole)
    (hc : cond0_0 i) (x0 x1 x2 : Vec F S4000x9 .f32) (x3 : Vec F S1x9 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S4000x9) hz2, View.ld_unit_zero (S := S1x9) hz2]

end Cert.ObsLoss.Cases
end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.Payload.lean ====
/-
  The kernel body's arithmetic at an index, over the extended reals.

  One grid step reads a tile of 4000 rows of the three `[4000, 9]` blocks `Y`, `P`, `N`, the divisor row
  `nv : [1, 9]` and the accumulator block `acc : [1, 8, 128]`, and stores either the zero block or

      acc + (∑ q < 4000, (∑ j < 9, ((Y q j - P q j) / nv j)²) / (∑ j < 9, flag (N q j)))   spread over the block.

  Over the extended reals no value is unequal to itself, so every flag is `1` and each row's count is `9`. Each layout
  step (a lane sum viewed as a column, the column's sum viewed as a `[1, 1, 1]` block, its spread over `[1, 8, 128]`)
  is read at an index written by its coordinates.
-/
import proofs.«116418_j18047452577914_2_alg».proof.Proof.Gen.KernelIdeal.Skeleton
import proofs.«116418_j18047452577914_2_alg».proof.Proof.LibKeepDims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ObsLoss.Pay

open Idealize.ShloMosaic Idealize.ShloMosaic.ValueIdx Cert.KernelIdeal

/-! ## The stored zero block -/

/-- The first stored value is the zero pattern spread over the block: every entry is the extended real `0`. -/
theorem pay1_apply (i : S1x8x128.Idx) : Cert.KernelIdeal.Gen.k0_pay1 (F := Ideal) i = 0 := by
  unfold Cert.KernelIdeal.Gen.k0_pay1
  show Ideal.ofBits .f32 0x00000000#32 = 0
  exact Ideal.ofBits_zero_f32

/-! ## The count of valid entries of a row -/

/-- The validity flag of an entry: an extended real is never unequal to itself, so the comparison bit is `0`, its
    complement is `1`, and the flag, widened and converted, is the real number one. -/
theorem flag_apply (v5 : FVec Ideal S4000x9 .f32) (h : 1 < 32) (i : S4000x9.Idx) :
    (sitofp .f32 (extui 32 (xori (cmpf .one v5 v5) (constantI S4000x9 1 1#1)) h) : FVec Ideal S4000x9 .f32) i
      = ((1 : ℝ) : EReal) := by
  show (((((IntOp.xori (Ideal.cmp .one (v5 i) (v5 i)) 1#1).setWidth 32).toInt : ℝ)) : EReal) = ((1 : ℝ) : EReal)
  have hc : Ideal.cmp .one (v5 i) (v5 i) = 0#1 := by simp [Ideal.cmp]
  rw [hc]
  have hb : ((IntOp.xori (0#1 : BitVec 1) 1#1).setWidth 32).toInt = 1 := by decide
  rw [hb]
  norm_num

/-- Nine ones add up to nine, in the extended reals. -/
theorem sum_nine_ones : (∑ _j : Fin 9, ((1 : ℝ) : EReal)) = ((9 : ℝ) : EReal) := by
  simp only [Fin.sum_univ_succ, Fin.sum_univ_zero, add_zero, ← EReal.coe_add]
  norm_num

/-- The count of a row: the lane sum of the nine flags is nine. -/
theorem count_apply (v5 : FVec Ideal S4000x9 .f32) (h : 1 < 32) (r1 : S4000x9.Reduces [1] S4000)
    (hφ : FKind.Formats .f32) (hacc : (0x00000000#32 : BitVec 32) = FKind.add.neutral .f32 hφ) (q : Fin 4000) :
    multiReduction .add [1] S4000
        (sitofp .f32 (extui 32 (xori (cmpf .one v5 v5) (constantI S4000x9 1 1#1)) h) : FVec Ideal S4000x9 .f32)
        0x00000000#32 r1 hφ hacc (ix1 q)
      = ((9 : ℝ) : EReal) := by
  refine (KeepDims.laneSum_apply _ _ r1 hφ hacc q).trans ?_
  refine (Finset.sum_congr rfl fun j _ => flag_apply v5 h (ix2 q j)).trans ?_
  exact sum_nine_ones

/-! ## The squared normalised difference of an entry, and a row's sum of them -/

/-- One entry of the squared quotient: the divisor row, spread down the rows, reads the divisor of the entry's
    channel. -/
theorem sq_apply (v3 v4 : FVec Ideal S4000x9 .f32) (v6 : FVec Ideal S1x9 .f32) (c19 : S1x9.ShapeCasts S1x9)
    (b19 : S1x9.Broadcasts S4000x9) (q : Fin 4000) (j : Fin 9) :
    mulf (divf (subf v3 v4) (broadcastTo S4000x9 (shapeCast S1x9 v6 c19) b19))
        (divf (subf v3 v4) (broadcastTo S4000x9 (shapeCast S1x9 v6 c19) b19)) (ix2 q j)
      = Ideal.div (v3 (ix2 q j) - v4 (ix2 q j)) (v6 (ix2 (0 : Fin 1) j))
          * Ideal.div (v3 (ix2 q j) - v4 (ix2 q j)) (v6 (ix2 (0 : Fin 1) j)) := by
  have hb : broadcastTo S4000x9 (shapeCast S1x9 v6 c19) b19 (ix2 q j) = v6 (ix2 (0 : Fin 1) j) :=
    (broadcastTo_1b_ab_apply _ b19 q j).trans (congrFun (shapeCast_self v6 c19) _)
  show Ideal.div (v3 (ix2 q j) - v4 (ix2 q j)) (broadcastTo S4000x9 (shapeCast S1x9 v6 c19) b19 (ix2 q j))
      * Ideal.div (v3 (ix2 q j) - v4 (ix2 q j)) (broadcastTo S4000x9 (shapeCast S1x9 v6 c19) b19 (ix2 q j)) = _
  rw [hb]

/-- A row's lane sum of the squared quotients. -/
theorem rowSum_apply (v3 v4 : FVec Ideal S4000x9 .f32) (v6 : FVec Ideal S1x9 .f32) (c19 : S1x9.ShapeCasts S1x9)
    (b19 : S1x9.Broadcasts S4000x9) (r1 : S4000x9.Reduces [1] S4000)
    (hφ : FKind.Formats .f32) (hacc : (0x00000000#32 : BitVec 32) = FKind.add.neutral .f32 hφ) (q : Fin 4000) :
    multiReduction .add [1] S4000
        (mulf (divf (subf v3 v4) (broadcastTo S4000x9 (shapeCast S1x9 v6 c19) b19))
          (divf (subf v3 v4) (broadcastTo S4000x9 (shapeCast S1x9 v6 c19) b19)))
        0x00000000#32 r1 hφ hacc (ix1 q)
      = ∑ j : Fin 9, (Ideal.div (v3 (ix2 q j) - v4 (ix2 q j)) (v6 (ix2 (0 : Fin 1) j))
          * Ideal.div (v3 (ix2 q j) - v4 (ix2 q j)) (v6 (ix2 (0 : Fin 1) j))) := by
  refine (KeepDims.laneSum_apply _ _ r1 hφ hacc q).trans ?_
  exact Finset.sum_congr rfl fun j _ => sq_apply v3 v4 v6 c19 b19 q j

/-! ## The sum down a column -/

/-- The sum over the rows (axis 0) of an `[a, 1]` column, read at its one index, is `∑ q : Fin a` of the column. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ q : Fin a, src (ix2 q (0 : Fin 1)) := by
  refine (Ideal.multiReduction_add_single src acc h hφ hacc (ix1 u)).trans ?_
  show ∑ k : Fin a, src (h.lift (ix1 u) k) = ∑ k : Fin a, src (ix2 k (0 : Fin 1))
  refine Finset.sum_congr rfl fun k _ => congrArg src ?_
  funext ax
  match ax with
  | ⟨0, _⟩ => exact Fin.ext rfl
  | ⟨1, _⟩ =>
    refine Fin.ext ?_
    show u.val = 0
    omega

/-! ## The stored accumulator block -/

/-- The second stored value at an index: the block read before it, plus the tile's sum over its 4000 rows of the row's
    sum of squared quotients divided by nine. The row sums are a lane sum viewed as a column; the column's quotient is
    summed down the rows into a one-element vector, viewed as a `[1, 1, 1]` block and spread over the whole
    `[1, 8, 128]` block, so every entry reads the same total. -/
theorem pay2_apply (v3 v4 v5 : Vec Ideal S4000x9 .f32) (v6 : Vec Ideal S1x9 .f32) (v26 : Vec Ideal S1x8x128 .f32)
    (i : S1x8x128.Idx) :
    Cert.KernelIdeal.Gen.k0_pay2 (F := Ideal) v3 v4 v5 v6 v26 i
      = v26 i + ∑ q : Fin 4000, Ideal.div
          (∑ j : Fin 9, (Ideal.div (v3 (ix2 q j) - v4 (ix2 q j)) (v6 (ix2 (0 : Fin 1) j))
            * Ideal.div (v3 (ix2 q j) - v4 (ix2 q j)) (v6 (ix2 (0 : Fin 1) j))))
          ((9 : ℝ) : EReal) := by
  unfold Cert.KernelIdeal.Gen.k0_pay2
  dsimp only
  -- the sum of two blocks at an index; the first is the block read before, cast to its own shape
  refine (addf_apply _ _ i).trans ?_
  refine congrArg₂ (· + ·) (congrFun (shapeCast_self v26 _) i) ?_
  -- the spread of a one-element block: every entry reads that element
  refine (broadcastTo_apply _ _ i (ix3 (0 : Fin 1) (0 : Fin 1) (0 : Fin 1))
    (fun a => match a with | ⟨0, _⟩ => rfl | ⟨1, _⟩ => rfl | ⟨2, _⟩ => rfl)).trans ?_
  -- the three views of the one-element vector
  refine (congrFun (shapeCast_self _ _) _).trans ?_
  refine (shapeCast_ab_1ab_apply _ _ (0 : Fin 1) (0 : Fin 1) (0 : Fin 1)).trans ?_
  refine (shapeCast_a_1a_apply _ _ (0 : Fin 1) (0 : Fin 1)).trans ?_
  -- the sum down the column of row quotients
  refine (colSum_apply _ _ _ _ _ (0 : Fin 1)).trans ?_
  refine Finset.sum_congr rfl fun q _ => ?_
  refine (divf_apply _ _ _).trans ?_
  refine congrArg₂ Ideal.div ?_ ?_
  · -- the row's sum of squared quotients, through the column view
    refine (KeepDims.shapeCast_a_a1_apply _ _ q (0 : Fin 1)).trans ?_
    exact rowSum_apply v3 v4 v6 _ _ _ _ _ q
  · -- the row's count, through the column view
    refine (KeepDims.shapeCast_a_a1_apply _ _ q (0 : Fin 1)).trans ?_
    exact count_apply v5 _ _ _ _ q

end Cert.ObsLoss.Pay

end
-- ==== Proof.Accum.lean ====
/-
  The accumulation across the grid.

  Each point adds its tile's sum to every entry of the output block; the block is reset to zero at points 0 and 625,
  the first points of the two runs. So after point `n` the block holds, everywhere, the sum of the tiles of `n`'s run
  up to `n` (`Cert.ObsLoss.run`).
-/
import proofs.«116418_j18047452577914_2_alg».proof.Proof.Blocks
import proofs.«116418_j18047452577914_2_alg».proof.Proof.Cases
import proofs.«116418_j18047452577914_2_alg».proof.Proof.Payload

noncomputable section
open Idealize.ShloMosaic Idealize.ShloMosaic.TcCoe Idealize.SL.Sem Idealize.ShloMosaic.ValueIdx
open Idealize.ShloMosaic.Pipeline (Dat)
open scoped BigOperators

namespace Cert.ObsLoss.Accum
open Cert.KernelIdeal Cert.KernelIdeal.Gen Cert.ObsLoss.Blocks Cert.ObsLoss.Pay

variable (m : (ℓ : Loc nD τ sig) → Buf (Elt Ideal) ℓ)

/-- The first argument by coordinates (row, channel). -/
def argY (c : Dev nD) : Fin 5000000 → Fin 9 → EReal := fun r j => m ((c.tc : Thread nD τ).loc main_arg0) (ix2 r j)
/-- The second argument by coordinates. -/
def argP (c : Dev nD) : Fin 5000000 → Fin 9 → EReal := fun r j => m ((c.tc : Thread nD τ).loc main_arg1) (ix2 r j)
/-- The divisor vector by its coordinate. -/
def argN (c : Dev nD) : Fin 9 → EReal := fun j => m ((c.tc : Thread nD τ).loc main_arg3) (ix1 j)

/-- Tile `k`'s sum (zero past the grid). -/
def tile (c : Dev nD) (k : ℕ) : EReal :=
  if h : k < 1250 then Cert.ObsLoss.tileSum (argY m c) (argP m c) (argN m c) ⟨k, h⟩ else 0

/-- The body's stored value at point `t`, over a block `xo`: every entry is `xo`'s entry plus the sum of tile `t` — the
    body's arithmetic read at an index, its input blocks read in the arguments' coordinates. -/
theorem pay_tile (c : Dev nD) (t : Fin cfg0.N) (xo : Vec Ideal S1x8x128 .f32) (i : S1x8x128.Idx) :
    k0_pay2 (F := Ideal) (iblk m c 0 t) (iblk m c 1 t) (iblk m c 2 t) (iblk m c 3 t) xo i = xo i + tile m c t.val := by
  refine (pay2_apply _ _ _ _ _ i).trans (congrArg (xo i + ·) ?_)
  rw [tile, dif_pos (tlt t)]
  unfold Cert.ObsLoss.tileSum Cert.ObsLoss.rowMean Cert.ObsLoss.term argY argP argN
  refine Finset.sum_congr rfl fun q _ => congrArg (Ideal.div · _) (Finset.sum_congr rfl fun j _ => ?_)
  rw [iblk0_apply, iblk1_apply, iblk3_apply]

/-- What the output block holds after point `n`: in every entry, the running sum of the tiles of the current run of
    625, by induction on the point — a point that starts a run adds its tile to the zero block it has just stored, any
    other point adds its tile to what the point before left. -/
theorem outsAt_eq (c : Dev nD) : ∀ (n : ℕ) (h : n < cfg0.N), outsAt0 m c n h = fun _ => Cert.ObsLoss.run (tile m c) n
  | 0, h => by
    rw [outsAt0_A m c ⟨0, h⟩ rfl, Cert.ObsLoss.Cases.out_A]
    funext i
    rw [pay_tile, pay1_apply, zero_add]
    rfl
  | n + 1, h => by
    by_cases h0 : (n + 1) % 625 = 0
    · rw [outsAt0_A m c ⟨n + 1, h⟩ h0, Cert.ObsLoss.Cases.out_A]
      funext i
      rw [pay_tile, pay1_apply, zero_add, Cert.ObsLoss.run, if_pos h0]
    · rw [outsAt0_B m c ⟨n + 1, h⟩ h0, Cert.ObsLoss.Cases.out_B]
      funext i
      rw [pay_tile, Cert.ObsLoss.run, if_neg h0]
      show outsAt0 m c n _ i + _ = _
      rw [outsAt_eq c n]

end Cert.ObsLoss.Accum

end
-- ==== Proof.Final.lean ====
/-
  The output array after the run.

  The `[2, 8, 128]` output is written back twice, one `[1, 8, 128]` slot at the end of each run of 625 points; the two
  slots tile it. Slot `s` ends holding, in every entry, the total of run `s`.
-/
import proofs.«116418_j18047452577914_2_alg».proof.Proof.Accum

noncomputable section
open Idealize.ShloMosaic Idealize.ShloMosaic.TcCoe Idealize.SL.Sem Idealize.ShloMosaic.ValueIdx
open Idealize.ShloMosaic.Pipeline (Dat)
open scoped BigOperators

namespace Cert.ObsLoss.Final
open Cert.KernelIdeal Cert.KernelIdeal.Gen Cert.ObsLoss.Blocks Cert.ObsLoss.Accum

variable (m : (ℓ : Loc nD τ sig) → Buf (Elt Ideal) ℓ)

/-- The output array after the run: slot `s` holds, in every entry, the total of run `s`. -/
def outArr (c : Dev nD) : S2x8x128.Idx → EReal := fun i => Cert.ObsLoss.run (tile m c) (625 * (i 0).val + 624)

/-- A point writes the output block back only at the end of a run (`t ≡ 624 mod 625`), to slot `t / 625`, and what it
    writes is that slot of `outArr`: the run's total in every entry. -/
theorem flushed_eq (c : Dev nD) (t : Fin cfg0.N) (hf : (cfg0.win 4).flush t = true) :
    (dats m 0 c).flushed 4 t = ((cfg0.win 4).blk t).view.read (Elt Ideal) (outArr m c) := by
  have h624 : t.val % 625 = 624 := (flush0_4 t).mp hf
  obtain ⟨-, -, -, -, -, -, -, -, e0, e1, e2⟩ := idx_facts t
  show (cfg0.win 4).cut (grid0.coords t) ((dats m 0 c).after 4 t) = _
  rw [after0_4, outsAt_eq]
  funext y
  show Cert.ObsLoss.run (tile m c) t.val = outArr m c (((cfg0.win 4).blk t).view.emb y)
  unfold outArr
  refine congrArg _ ?_
  show t.val = 625 * (win0_4.index t (0 : Fin 3) * 1 + 1 * (y 0).val) + 624
  have hy : (y 0).val < 1 := (y 0).isLt
  omega

/-- An index of the output array lies in point `t`'s block iff each coordinate lies in the block's range. -/
theorem mem_blk (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v1).slice (win0_4.rect t)).set ↔ _
  rw [View.set_slice_whole, Rect.mem_set_unit]
  exact Iff.rfl

/-- Every index `(s, ·, ·)` lies in the block written back at the last point of run `s`. -/
theorem cover (i : S2x8x128.Idx) : ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 1250 := N_0
  let t : Fin cfg0.N := ⟨625 * (i 0).val + 624, by rw [hN]; omega⟩
  have ht : t.val = 625 * (i 0).val + 624 := rfl
  obtain ⟨-, -, -, -, -, -, -, -, e0, e1, e2⟩ := idx_facts t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- So the output array ends holding `outArr`. -/
theorem final (c : Dev nD) : (dats m 0 c).arrAt 4 cfg0.N = outArr m c :=
  (dats m 0 c).arrAt_eq_of_cover 4 (outArr m c) (flushed_eq m c) (cover)

end Cert.ObsLoss.Final

end
-- ==== Proof.HostTail.lean ====
/-
  The host operations after the kernel, as one function of the kernel's output array.

  They take the corner entry `(s, 0, 0)` of each of the two slots, add the two (starting from zero) and divide by the
  number of rows.
-/
import proofs.«116418_j18047452577914_2_alg».proof.Proof.Gen.KernelIdeal
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx
open Idealize.ShloMosaic.Pipeline (Dat)
open scoped BigOperators

namespace Cert.ObsLoss.HostTail
open Cert.KernelIdeal Cert.KernelIdeal.Gen

/-- The host lines after the region, as one function of the output array. -/
def tailFn (A : S2x8x128.Idx → EReal) : S_.Idx → EReal :=
  Host.divf (F := Ideal)
    (Host.reduceAdd (F := Ideal)
      (shapeCast S2 (extractStridedSlice S2x1x1 ![0, 0, 0] A slices_S2x8x128_S2x1x1_0_0_0) shapeCasts_S2x1x1_S2)
      (constant (F := Ideal) S_ .f32 0x00000000#32) reducesTo_S2_S_d0 h_S_)
    (constant (F := Ideal) S_ .f32 0x4A989680#32)

/-- The indices of a vector are its coordinates. -/
def idx1Equiv (n : ℕ) : Fin n ≃ (⟨1, ![n]⟩ : Shape).Idx where
  toFun := ix1
  invFun j := j 0
  left_inv _ := rfl
  right_inv j := (eq_ix1 j).symm

/-- A sum over a vector's indices is the sum over its coordinates. -/
theorem sum_idx1 {M : Type*} [AddCommMonoid M] {n : ℕ} (f : (⟨1, ![n]⟩ : Shape).Idx → M) :
    ∑ j, f j = ∑ k : Fin n, f (ix1 k) := ((idx1Equiv n).sum_comp f).symm

/-- Entry `k` of the two-element vector the host cuts out of the output array — the `[2, 1, 1]` corner `[0:2, 0:1, 0:1]`,
    viewed as `[2]` — is the array's entry `(k, 0, 0)`. -/
theorem slot_apply (A : S2x8x128.Idx → EReal) (k : Fin 2) :
    shapeCast S2 (extractStridedSlice S2x1x1 ![0, 0, 0] A slices_S2x8x128_S2x1x1_0_0_0) shapeCasts_S2x1x1_S2 (ix1 k)
      = A (ix3 k (0 : Fin 8) (0 : Fin 128)) := by
  refine (shapeCast_apply _ shapeCasts_S2x1x1_S2 (ix1 k) (ix3 k (0 : Fin 1) (0 : Fin 1)) (by
    rw [Shape.rowMajor_val_one, Shape.rowMajor_val_three]
    show (k.val * 1 + 0) * 1 + 0 = k.val
    omega)).trans ?_
  unfold extractStridedSlice
  refine congrArg A (funext fun a => Fin.ext ?_)
  match a with
  | ⟨0, _⟩ => show 0 + k.val = k.val; omega
  | ⟨1, _⟩ => rfl
  | ⟨2, _⟩ => rfl

/-- The host lines' result: the two slots' corner entries added (to a zero initial value) and divided by the f32
    pattern of 5000000. -/
theorem tail_apply (A : S2x8x128.Idx → EReal) (i : S_.Idx) :
    tailFn A i = Ideal.div (A (ix3 (0 : Fin 2) (0 : Fin 8) (0 : Fin 128)) + A (ix3 (1 : Fin 2) (0 : Fin 8) (0 : Fin 128)))
      (Ideal.ofBits .f32 0x4A989680#32) := by
  unfold tailFn
  show Ideal.div (Host.reduceAdd (F := Ideal) _ _ reducesTo_S2_S_d0 h_S_ i) (Ideal.ofBits .f32 0x4A989680#32) = _
  refine congrArg (Ideal.div · _) ?_
  generalize hy : shapeCast S2 (extractStridedSlice S2x1x1 ![0, 0, 0] A slices_S2x8x128_S2x1x1_0_0_0) shapeCasts_S2x1x1_S2 = y0
  have h0 : y0 (ix1 (0 : Fin 2)) = A (ix3 (0 : Fin 2) (0 : Fin 8) (0 : Fin 128)) := by rw [← hy]; exact slot_apply A 0
  have h1 : y0 (ix1 (1 : Fin 2)) = A (ix3 (1 : Fin 2) (0 : Fin 8) (0 : Fin 128)) := by rw [← hy]; exact slot_apply A 1
  simp only [Host.reduceAdd, Ideal.hostReduceAdd_def]
  rw [Ideal.hostReduceAdd_total reducesTo_S2_S_d0 (fun b => b.elim0)]
  show Ideal.ofBits .f32 0x00000000#32 + ∑ j : S2.Idx, y0 j = _
  rw [Ideal.ofBits_zero_f32, zero_add, sum_idx1, Fin.sum_univ_two, h0, h1]

end Cert.ObsLoss.HostTail

end
-- ==== Proof.Tail.lean ====
/-
  The kernel program's result.

  The two slots' totals together are the sum over all 1250 tiles (addition of extended reals is commutative and
  associative), that is the sum over all 5000000 rows of the rows' means; the host lines divide it by the number of
  rows: the specification's `loss` of the argument arrays.
-/
import proofs.«116418_j18047452577914_2_alg».proof.Proof.Final
import proofs.«116418_j18047452577914_2_alg».proof.Proof.HostTail

noncomputable section
open Idealize.ShloMosaic Idealize.ShloMosaic.TcCoe Idealize.SL.Sem Idealize.ShloMosaic.ValueIdx
open Idealize.ShloMosaic.Pipeline (Dat)
open scoped BigOperators

namespace Cert.ObsLoss.Tail
open Cert.KernelIdeal Cert.KernelIdeal.Gen Cert.ObsLoss.Blocks Cert.ObsLoss.Accum Cert.ObsLoss.Final Cert.ObsLoss.HostTail

variable (m : (ℓ : Loc nD τ sig) → Buf (Elt Ideal) ℓ) (ρ : Dev nD → PrngReg)

/-- The two slots together are the sum over all rows of the rows' means. -/
theorem slots_total (c : Dev nD) :
    outArr m c (ix3 (0 : Fin 2) (0 : Fin 8) (0 : Fin 128)) + outArr m c (ix3 (1 : Fin 2) (0 : Fin 8) (0 : Fin 128))
      = ∑ r : Fin 5000000, Cert.ObsLoss.rowMean (argY m c) (argP m c) (argN m c) r := by
  show Cert.ObsLoss.run (tile m c) 624 + Cert.ObsLoss.run (tile m c) 1249 = _
  rw [Cert.ObsLoss.run_total, Finset.sum_range, Cert.ObsLoss.sum_rows]
  refine Finset.sum_congr rfl fun n _ => ?_
  rw [tile, dif_pos n.isLt]
  rfl

/-- The program's result: the loss of the argument arrays. -/
theorem result_eq (c : Dev nD) :
    Pipeline.afterTail₀ cfgs (dats m) 0 (V0 m) [hostOps1] c main_v5
      = fun _ => Cert.ObsLoss.loss (argY m c) (argP m c) (argN m c) := by
  have e : Pipeline.afterTail₀ cfgs (dats m) 0 (V0 m) [hostOps1] c main_v5 = tailFn (outArr m c) := by
    unfold Pipeline.afterTail₀
    show StableHlo.after hostOps1 _ (Proc.devRef .tc main_v5) = _
    after_results
    have hA : Pipeline.withArrays (cfgs 0).spec c (V0 m c) (fun w => (dats m 0 c).arrAt w (cfgs 0).N) (Proc.tc.devRef main_v1)
        = outArr m c :=
      (Pipeline.withArrays_arr spec0 launch0.win.arr_inj c _ _ 4).trans (final m c)
    rw [hA]
    rfl
  rw [e]
  funext i
  rw [tail_apply, slots_total]
  rfl

/-- The run, read: the result buffer at the loss of the argument arrays, the arguments unchanged. -/
theorem run : θ_run defs (onTc (τ := τ) (main (F := Ideal))) ⟨m, fun _ => 0, ρ⟩ fun r => ∀ c : Dev nD,
      r.2.mem ((c.tc : Thread nD τ).loc main_v5) = (fun _ => Cert.ObsLoss.loss (argY m c) (argP m c) (argN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.ObsLoss.Tail

end
-- ==== Proof.RefValue.lean ====
/-
  The reference program's result is the specification's `loss`.

  The reference subtracts, divides by the per-channel vector, squares, sums each row's nine entries, divides the
  row's sum by the number of its entries that equal themselves, sums the rows and divides by the number of rows.
  Over the extended reals every entry equals itself, so every flag is the word 1, a row's count is the word 9 and its
  conversion the real 9; the two zero initial values drop out of the sums; and a sum over the one-coordinate
  indices of the rows is the sum over the rows.
-/
import proofs.«116418_j18047452577914_2_alg».proof.Proof.Gen.ReferenceIdeal.Read
import proofs.«116418_j18047452577914_2_alg».proof.Proof.Spec
import Idealize.ShloMosaic.Lib.ValueIdx
import Idealize.ShloMosaic.PureOps.Reduce
import Idealize.ShloMosaic.PureOps.Ideal.Laws

noncomputable section

open scoped BigOperators

namespace Cert.ObsLoss.Ref

open Cert.ReferenceIdeal Cert.ReferenceIdeal.Gen Cert.ReferenceIdeal.Read Idealize.ShloMosaic Idealize.ShloMosaic.ValueIdx

/-! ## The count of a row's valid entries -/

/-- No extended real differs from itself, so every validity flag is the word 1. -/
theorem flag_eq_one (x2 : (⟨S5000000x9, .f32⟩ : BufTy).Contents (Elt Ideal)) (i : S5000000x9.Idx) :
    val_main_v7 (F := Ideal) x2 i = 1#32 := by
  rw [val_main_v7_apply, val_main_v6_apply, val_main_v5_apply, Ideal.cmpf_def]
  have h : Ideal.cmp .une (x2 i) (x2 i) = 0#1 := by
    unfold Ideal.cmp
    simp
  rw [h]
  decide

/-- Nine ones added to the zero word are the word 9. -/
theorem fold_ones : (Finset.univ : Finset (Fin 9)).fold IntOp.addi (0#32) (fun _ => 1#32) = 9#32 := by
  decide

/-- A row's count is the word 9. -/
theorem count_eq (x2 : (⟨S5000000x9, .f32⟩ : BufTy).Contents (Elt Ideal)) (i : S5000000.Idx) :
    val_main_v8 (F := Ideal) x2 i = 9#32 := by
  unfold val_main_v8
  rw [show val_main_v7 (F := Ideal) x2 = fun _ => 1#32 from funext (flag_eq_one x2)]
  rw [Host.reduce_eq_fold_single IntOp.addi _ _ reducesTo_S5000000x9_S5000000_d1 (by decide) h_S_ i]
  exact fold_ones

/-- Converted, the count is the real 9. -/
theorem count_real (x2 : (⟨S5000000x9, .f32⟩ : BufTy).Contents (Elt Ideal)) (i : S5000000.Idx) :
    val_main_v9 (F := Ideal) x2 i = ((9 : ℝ) : EReal) := by
  rw [val_main_v9_apply, count_eq]
  show (((9#32 : BitVec 32).toInt : ℝ) : EReal) = ((9 : ℝ) : EReal)
  rw [show (9#32 : BitVec 32).toInt = 9 from by decide]
  norm_num

/-! ## One entry, one row, all rows -/

/-- The squared normalised difference at row `r`, channel `k`. -/
theorem entry_eq (x0 x1 : (⟨S5000000x9, .f32⟩ : BufTy).Contents (Elt Ideal)) (x3 : (⟨S9, .f32⟩ : BufTy).Contents (Elt Ideal))
    (r : Fin 5000000) (k : Fin 9) :
    val_main_v4 (F := Ideal) x0 x1 x3 (ix2 r k)
      = term (fun r j => x0 (ix2 r j)) (fun r j => x1 (ix2 r j)) (fun j => x3 (ix1 j)) r k := by
  have hnv : val_main_v2 (F := Ideal) x3 (ix2 r k) = x3 (ix1 k) := by
    rw [val_main_v2_apply, val_main_v1_apply]
    exact congrArg x3 (funext fun a => Fin.ext (by match a with | ⟨0, _⟩ => rfl))
  rw [val_main_v4_apply, val_main_v3_apply, hnv, val_main_v0_apply]
  simp only [Ideal.mulf_def, Ideal.hostDivf_def, Ideal.subf_def]
  rfl

/-- A row's mean. -/
theorem row_eq (x0 x1 x2 : (⟨S5000000x9, .f32⟩ : BufTy).Contents (Elt Ideal)) (x3 : (⟨S9, .f32⟩ : BufTy).Contents (Elt Ideal))
    (r : Fin 5000000) :
    val_main_v11 (F := Ideal) x0 x1 x2 x3 (ix1 r)
      = rowMean (fun r j => x0 (ix2 r j)) (fun r j => x1 (ix2 r j)) (fun j => x3 (ix1 j)) r := by
  rw [val_main_v11_apply, val_main_v10_apply, count_real, val_main_cst_apply]
  simp only [Ideal.hostDivf_def, Ideal.ofBits_def, Ideal.ofBits_zero_f32, zero_add]
  unfold rowMean
  refine congrArg (fun s => Ideal.div s ((9 : ℝ) : EReal)) (Finset.sum_congr rfl fun k _ => ?_)
  have hidx : idx_main_v10 (ix1 r) k = ix2 r k :=
    funext fun a => Fin.ext (by match a with | ⟨0, _⟩ => rfl | ⟨1, _⟩ => rfl)
  rw [hidx]
  exact entry_eq x0 x1 x3 r k

/-- The one-coordinate indices of the rows are the rows. -/
def rowEquiv : Fin 5000000 ≃ S5000000.Idx where
  toFun r := ix1 r
  invFun j := j 0
  left_inv _ := rfl
  right_inv j := (eq_ix1 j).symm

/-- The reference's result is the specification's loss. -/
theorem ref_eq (x0 x1 x2 : (⟨Cert.ReferenceIdeal.S5000000x9, .f32⟩ : BufTy).Contents (Elt Ideal))
    (x3 : (⟨Cert.ReferenceIdeal.S9, .f32⟩ : BufTy).Contents (Elt Ideal)) (i : Cert.ReferenceIdeal.S_.Idx) :
    Cert.ReferenceIdeal.Read.val_main_v13 (F := Ideal) x0 x1 x2 x3 i
      = Cert.ObsLoss.loss (fun r j => x0 (ValueIdx.ix2 r j)) (fun r j => x1 (ValueIdx.ix2 r j)) (fun j => x3 (ValueIdx.ix1 j)) := by
  rw [val_main_v13_apply, val_main_v12_apply, val_main_cst_1_apply, val_main_cst_0_apply]
  simp only [Ideal.hostDivf_def, Ideal.ofBits_def, Ideal.ofBits_zero_f32, zero_add]
  unfold loss
  refine congrArg (fun s => Ideal.div s (Ideal.ofBits .f32 0x4A989680#32)) ?_
  rw [← Equiv.sum_comp rowEquiv]
  exact Finset.sum_congr rfl fun r _ => row_eq x0 x1 x2 x3 r

end Cert.ObsLoss.Ref

end
-- ==== Proof.lean ====
/-
  A masked squared-error loss: kernel against reference, over the extended reals.

  For three `[5000000, 9]` arrays `Y`, `P`, `N` and a `[9]` vector `nv` both programs compute

      loss = (∑ r, (∑ j, ((Y r j - P r j) / nv j)²) / count r) / 5000000,

  where `count r` is the number of entries of row `r` of `N` that are equal to themselves. Over the extended reals
  every value equals itself, so `count r = 9` in both programs (the kernel sums nine float ones, the reference sums nine
  integer ones and converts), and `N` plays no further part.

  The reference takes the sum over all rows at once. The kernel walks the rows in 1250 tiles of 4000, adds each
  tile's sum into an output block that it resets at tiles 0 and 625, writes the block back at tiles 624 and 1249 into
  the two slots of a `[2, 8, 128]` array, and the host adds the two slots' corner entries and divides by the number of
  rows. The two sides are equal because addition of extended reals is commutative and associative — the sum over the
  rows is the sum over the tiles of the sums over each tile's rows, and the two runs of 625 tiles together are all the
  tiles. No finiteness of the inputs is used: both sides divide the same sums by the same divisors.

  The frames of the two kernel programs are the generated ones; the reference's frame is its generated run with the
  result dropped; the idealization rewrote nothing.
-/
import proofs.«116418_j18047452577914_2_alg».proof.Defs
import proofs.«116418_j18047452577914_2_alg».proof.Proof.Gen.Kernel
import proofs.«116418_j18047452577914_2_alg».proof.Proof.Gen.Kernel.Frame
import proofs.«116418_j18047452577914_2_alg».proof.Proof.Gen.KernelIdeal
import proofs.«116418_j18047452577914_2_alg».proof.Proof.Gen.KernelIdeal.Frame
import proofs.«116418_j18047452577914_2_alg».proof.Proof.Gen.ReferenceIdeal
import proofs.«116418_j18047452577914_2_alg».proof.Proof.Gen.Pre_finite_inputs
import proofs.«116418_j18047452577914_2_alg».proof.Proof.Gen.ReferenceIdeal.Run
import proofs.«116418_j18047452577914_2_alg».proof.Proof.Gen.ReferenceIdeal.Read
import proofs.«116418_j18047452577914_2_alg».proof.Proof.Tail
import proofs.«116418_j18047452577914_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the loss of the argument arrays: the kernel program by the accumulation across the grid and
    the host lines after it, the reference operation by operation; the arguments agree. -/
theorem algebraic : Cert.algebraic_KernelIdeal_ReferenceIdeal := by
  intro m ρ m' ρ' _ hagree
  refine ⟨fun c => fun _ => Cert.ObsLoss.loss (Cert.ObsLoss.Accum.argY m c) (Cert.ObsLoss.Accum.argP m c)
    (Cert.ObsLoss.Accum.argN m c), Cert.ObsLoss.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ObsLoss.Ref.ref_eq, (hagree c).1, (hagree c).2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
